-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel's run, with its result named.

  The program is eight segments in a row: three stretches of host operations, the first row-tiled product, two more
  stretches, the second product, a last stretch. Each segment starts from the buffer contents the one before it left,
  so the contents at the eight boundaries are a fold from the launch memory, and what the program returns is what the
  last fold holds at the result's buffer. The frame proof of this program walks exactly that fold and then keeps, of
  the last contents, only the six arguments. Here the same walk is made once more and the result's buffer is kept
  too: every weakly fair execution ends with the result at the last boundary's contents and the arguments as launched.
  What those contents ARE, as a function of the arguments, is read off the fold elsewhere.
-/
import proofs.«173399_j2817498546746_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result's buffer at the contents
    the fold through the eight segments leaves there (`W8`) and the six arguments as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no ghost resource rides beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      -- each segment ends where the next begins; the last leaves the buffers at `W8`, the register, and nothing owed
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- at launch every unscoped buffer is at the launch memory
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      -- the last thread state, read against a final state: every unscoped buffer holds `W8`'s contents
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.Aggregation.lean ====
/-
  A two-layer graph convolution as two sparse aggregations around two dense products.

  Write e for the edge list (2 × 1600000 node numbers). With one self loop per node appended, its first row is the
  source column s and its second the target column d, both of length 1700000. The degree of a node counts the entries
  of d equal to it, and the weight of edge k is

      w[k] = deg^(-1/2)[s[k]] * deg^(-1/2)[d[k]]        (deg^(-1/2) read as 0 where the degree is not positive),

  a node number below zero counting from the end, as array indexing does. One layer takes a dense matrix M, one row
  per node, and a bias row b to

      agg(M, b)[v, :] = (sum over the edges k with d[k] = v of M[s[k], :] * w[k]) + b :

  a gather of rows, a scaling, a scatter-add into zeros and a broadcast bias. The whole network is

      out = agg₃₂( relu(agg₆₄(x · W1, b1)) · W2, b2 ).

  Each piece is named here as a function of what enters it: the columns from the edge list, the weights from the
  columns, an aggregation from the columns, the weights, the bias and the dense matrix M. Nothing below opens an
  aggregation. Two programs that feed equal matrices into the same aggregation return equal arrays whatever the
  entries are, infinite ones included, so no finiteness of the inputs is ever used.
-/
import proofs.«173399_j2817498546746_1_alg».proof.ReferenceIdeal
import Idealize.ShloMosaic.PureOps.Ideal

noncomputable section

namespace Cert.GcnLayers

open Cert.ReferenceIdeal Cert.ReferenceIdeal.Facts₀
open Idealize.ShloMosaic Idealize.ShloMosaic.TcCoe Idealize.SL.Sem

variable [Cert.ReferenceIdeal.Facts₀]
variable {F : FTy → Type} [FloatOps F]

/-- Row `r` of the edge list, followed by the self loops 0, 1, …, 99999. -/
def sources (e : (⟨S2x1600000, .i32⟩ : BufTy).Contents (Elt F)) : (⟨S1700000, .i32⟩ : BufTy).Contents (Elt F) :=
  concatenate S1700000 0
    [⟨S1600000, shapeCast _ (extractStridedSlice S1x1600000 ![0, 0] e slices_S2x1600000_S1x1600000_0_0) shapeCasts_S1x1600000_S1600000⟩,
     ⟨S100000, iotaInDim S100000 32 0⟩] concatenates_S1600000_S100000_S1700000_d0

/-- The second row of the edge list, followed by the same self loops. -/
def targets (e : (⟨S2x1600000, .i32⟩ : BufTy).Contents (Elt F)) : (⟨S1700000, .i32⟩ : BufTy).Contents (Elt F) :=
  concatenate S1700000 0
    [⟨S1600000, shapeCast _ (extractStridedSlice S1x1600000 ![1, 0] e slices_S2x1600000_S1x1600000_1_0) shapeCasts_S1x1600000_S1600000⟩,
     ⟨S100000, iotaInDim S100000 32 0⟩] concatenates_S1600000_S100000_S1700000_d0

/-- A column of node numbers as gather indices: a number below zero has the node count added, and the column becomes
    a one-column matrix. -/
def asIndex (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The degrees: ones scatter-added at the targets into zeros. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- `deg^(-1/2)` where the degree is positive, zero elsewhere. -/
def invSqrtDegree (d : (⟨S1700000, .i32⟩ : BufTy).Contents (Elt F)) : (⟨S100000, .f32⟩ : BufTy).Contents (Elt F) :=
  select (cmpf (F := F) .ogt (degree (F := F) d) (broadcastInDim S100000 ![] bcast_S_S100000 (constant S_ .f32 0x00000000#32)))
    (Host.rsqrt (degree (F := F) d))
    (broadcastInDim S100000 ![] bcast_S_S100000 (id (constant S_ .f32 0x00000000#32)))

/-- The product, edge by edge, of a node vector `r` at the edge's two ends. -/
def edgeWeights (r : (⟨S100000, .f32⟩ : BufTy).Contents (Elt F)) (s d : (⟨S1700000, .i32⟩ : BufTy).Contents (Elt F)) : (⟨S1700000, .f32⟩ : BufTy).Contents (Elt F) :=
  mulf (Host.gather gather_S100000_S1700000x1_S1700000_n_0_n_n_0_1_1 r (asIndex (F := F) s))
    (Host.gather gather_S100000_S1700000x1_S1700000_n_0_n_n_0_1_1 r (asIndex (F := F) d))

/-- The edge weights: the product of `deg^(-1/2)` at the two ends of each edge. -/
def weights (s d : (⟨S1700000, .i32⟩ : BufTy).Contents (Elt F)) : (⟨S1700000, .f32⟩ : BufTy).Contents (Elt F) :=
  edgeWeights (F := F) (invSqrtDegree (F := F) d) s d

/-- One aggregation at 64 columns: gather the rows of `M` at the sources, scale row `k` by `w[k]`, scatter-add at the
    targets into zeros, add the bias row. -/
def aggregate64 (s d : (⟨S1700000, .i32⟩ : BufTy).Contents (Elt F)) (w : (⟨S1700000, .f32⟩ : BufTy).Contents (Elt F)) (b : (⟨S64, .f32⟩ : BufTy).Contents (Elt F))
    (M : (⟨S100000x64, .f32⟩ : BufTy).Contents (Elt F)) : (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 d)
      (mulf (Host.gather gather_S100000x64_S1700000x1_S1700000x64_1_0_n_n_0_1_164 M (asIndex (F := F) s))
        (broadcastInDim S1700000x64 ![0, 1] bcast_S1700000x1_S1700000x64_0_1
          (broadcastInDim S1700000x1 ![0] bcast_S1700000_S1700000x1_0 w))))
    (broadcastInDim S100000x64 ![0, 1] bcast_S1x64_S100000x64_0_1 (broadcastInDim S1x64 ![1] bcast_S64_S1x64_1 b))

/-- The clamp below at zero between the layers. -/
def relu64 (h : (⟨S100000x64, .f32⟩ : BufTy).Contents (Elt F)) : (⟨S100000x64, .f32⟩ : BufTy).Contents (Elt F) :=
  maximumf h (broadcastInDim S100000x64 ![] bcast_S_S100000x64 (constant S_ .f32 0x00000000#32))

/-- The same aggregation at 32 columns. -/
def aggregate32 (s d : (⟨S1700000, .i32⟩ : BufTy).Contents (Elt F)) (w : (⟨S1700000, .f32⟩ : BufTy).Contents (Elt F)) (b : (⟨S32, .f32⟩ : BufTy).Contents (Elt F))
    (M : (⟨S100000x32, .f32⟩ : BufTy).Contents (Elt F)) : (⟨S100000x32, .f32⟩ : BufTy).Contents (Elt F) :=
  addf
    (Host.scatterAdd scatter_S100000x32_S1700000x1_S1700000x32_1_0_0_1
      (broadcastInDim S100000x32 ![] bcast_S_S100000x32 (constant S_ .f32 0x00000000#32))
      (broadcastInDim S1700000x1 ![0] bcast_S1700000_S1700000x1_0 d)
      (mulf (Host.gather gather_S100000x32_S1700000x1_S1700000x32_1_0_n_n_0_1_132 M (asIndex (F := F) s))
        (broadcastInDim S1700000x32 ![0, 1] bcast_S1700000x1_S1700000x32_0_1
          (broadcastInDim S1700000x1 ![0] bcast_S1700000_S1700000x1_0 w))))
    (broadcastInDim S100000x32 ![0, 1] bcast_S1x32_S100000x32_0_1 (broadcastInDim S1x32 ![1] bcast_S32_S1x32_1 b))

/-- The whole network as one function of the six arguments: the two dense products are the host's, of whole matrices. -/
def network (x : (⟨S100000x128, .f32⟩ : BufTy).Contents (Elt F)) (e : (⟨S2x1600000, .i32⟩ : BufTy).Contents (Elt F)) (W1 : (⟨S128x64, .f32⟩ : BufTy).Contents (Elt F))
    (b1 : (⟨S64, .f32⟩ : BufTy).Contents (Elt F)) (W2 : (⟨S64x32, .f32⟩ : BufTy).Contents (Elt F)) (b2 : (⟨S32, .f32⟩ : BufTy).Contents (Elt F)) : (⟨S100000x32, .f32⟩ : BufTy).Contents (Elt F) :=
  aggregate32 (F := F) (sources (F := F) e) (targets (F := F) e) (weights (F := F) (sources (F := F) e) (targets (F := F) e)) b2
    (Host.dotGeneral dot_S100000x64_S64x32_S100000x32_1_0_0_1_n_n none
      (relu64 (aggregate64 (F := F) (sources (F := F) e) (targets (F := F) e) (weights (F := F) (sources (F := F) e) (targets (F := F) e)) b1
        (Host.dotGeneral dot_S100000x128_S128x64_S100000x64_1_0_0_1_n_n none x W1)))
      W2)

end Cert.GcnLayers

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.Product0.lean ====
/-
  The first row-tiled product, as one whole-array function.

  The kernel walks the 100000 rows of its left operand in ten blocks of 10000. At point t it loads rows
  10000·t … 10000·t + 9999 of the left operand (all 128 columns) and the whole 128 × 64 right operand, forms their product into
  a zero accumulator, and stores it whole as rows 10000·t … of the result. Changing the float format before the
  product is the identity on the extended reals, and row r of a product depends on row r of the left operand alone,
  so what point t writes back is block t of the product of the WHOLE operands. The ten blocks tile the result, hence
  after the region the result array is that product — the same sums the host's one whole product takes, entry by
  entry, with no condition on the entries.
-/
import proofs.«173399_j2817498546746_1_alg».proof.Proof.Gen.KernelIdeal.Frame
import proofs.«173399_j2817498546746_1_alg».proof.Proof.LibRowBlockDot
import Idealize.ShloMosaic.Lib.Pipeline.Value
import Idealize.ShloMosaic.Lib.ValueIdx

set_option maxRecDepth 16384

noncomputable section

namespace Cert.KernelIdeal.Product0

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)

/-- The stores and loads of the body start at the origin of their buffers. -/
theorem origin : (![0, 0] : Fin 2 → Nat) = fun _ => 0 := funext fun a => by fin_cases a <;> rfl

/-! ## One point's arithmetic -/

/-- Entry `j` of the body's stored value, computed from a block `x0` holding the rows `row a` of a matrix `X` and a
    block `x1` holding `W` entry by entry, is entry `i` of the host's product `X · W` when `i` is in row `row (j 0)`
    and the same column. -/
theorem stored_entry (X : FVec Ideal S100000x128 .f32) (W : FVec Ideal S128x64 .f32)
    (x0 : Vec Ideal S10000x128 .f32) (x1 : Vec Ideal S128x64 .f32) (row : Fin 10000 → Fin 100000)
    (h0 : ∀ a k, x0 (ix2 a k) = X (ix2 (row a) k)) (h1 : ∀ k b, x1 (ix2 k b) = W (ix2 k b))
    (j : S10000x64.Idx) (i : S100000x64.Idx) (hi0 : (i 0).val = (row (j 0)).val) (hi1 : (i 1).val = (j 1).val) :
    k0_pay1 (F := Ideal) x0 x1 j = Host.dotGeneral (DotDims.plain 100000 128 64) none X W i := by
  unfold k0_pay1
  exact Cert.LibRowBlockDot.matmul_rowBlock_apply_idx none none X W _ _ row h0 h1 j i hi0 hi1

/-! ## Where the blocks sit -/

/-- The printed index maps over the ten points: the left operand's block moves with the result's along the rows and
    stays at column block 0; the right operand's block never moves; the result's row block is one of 0 … 9. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block 0 … 9 of the result is some point's. -/
theorem index_onto : ∀ q : Fin 10, ∃ t : Fin cfg0.N, win0_2.index t = ![q.val, 0] :=
  (by decide +kernel : ∀ q : Fin 10, ∃ t : Fin grid0.N, win0_2.index t = ![q.val, 0])

/-- The row of the whole matrices that row `a` of point `t`'s blocks stands for. -/
def rowAt (t : Fin cfg0.N) (a : Fin 10000) : Fin 100000 :=
  ⟨win0_2.index t (0 : Fin 2) * 10000 + a.val, by have := (index_facts t).2.2.2.2.2; have := a.isLt; omega⟩

section Entry

variable (V : (c : Dev nD) → (b : Ref sig .tc) → Buf (Elt Ideal) ((c : Thread nD τ).loc b))

/-- The product of the two operand arrays as the region finds them, whole. -/
def whole (c : Dev nD) : FVec Ideal S100000x64 .f32 :=
  Host.dotGeneral (φ₁ := .f32) (φ₂ := .f32) (DotDims.plain 100000 128 64) none (V c main_arg0) (V c main_arg2)

/-- Point `t`'s block of the left operand holds rows `rowAt t a` of the array. -/
theorem left_block (c : Dev nD) (t : Fin cfg0.N) (a : Fin 10000) (k : Fin 128) :
    iblk0 V c 0 t (ix2 a k) = (V c main_arg0 : FVec Ideal S100000x128 .f32) (ix2 (rowAt t a) k) := by
  obtain ⟨e0, e1, -, -, -, -⟩ := index_facts t
  show V c main_arg0 (((cfg0.win 0).blk t).view.emb (ix2 a k)) = V c main_arg0 _
  refine congrArg (V c main_arg0) (funext fun ax => Fin.ext ?_)
  match ax with
  | ⟨0, _⟩ => show win0_0.index t (0 : Fin 2) * 10000 + 1 * a.val = win0_2.index t (0 : Fin 2) * 10000 + a.val; omega
  | ⟨1, _⟩ => show win0_0.index t (1 : Fin 2) * 128 + 1 * k.val = k.val; omega

/-- Every point's block of the right operand is the whole array. -/
theorem right_block (c : Dev nD) (t : Fin cfg0.N) (k : Fin 128) (b : Fin 64) :
    iblk0 V c 1 t (ix2 k b) = (V c main_arg2 : FVec Ideal S128x64 .f32) (ix2 k b) := by
  obtain ⟨-, -, e2, e3, -, -⟩ := index_facts t
  show V c main_arg2 (((cfg0.win 1).blk t).view.emb (ix2 k b)) = V c main_arg2 _
  refine congrArg (V c main_arg2) (funext fun ax => Fin.ext ?_)
  match ax with
  | ⟨0, _⟩ => show win0_1.index t (0 : Fin 2) * 128 + 1 * k.val = k.val; omega
  | ⟨1, _⟩ => show win0_1.index t (1 : Fin 2) * 64 + 1 * b.val = b.val; omega

/-- What point `t` writes back is block `t` of the whole product. -/
theorem written_back (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  obtain ⟨-, -, -, -, e4, -⟩ := index_facts t
  funext j
  show k0_pay1 (iblk0 V c 0 t) (iblk0 V c 1 t) j = whole V c (((cfg0.win 2).blk t).view.emb j)
  unfold whole
  refine stored_entry (V c main_arg0) (V c main_arg2) (iblk0 V c 0 t) (iblk0 V c 1 t) (rowAt t)
    (fun a k => left_block V c t a k) (fun k b => right_block V c t k b) j _ ?_ ?_
  · show win0_2.index t (0 : Fin 2) * 10000 + 1 * (j 0).val = win0_2.index t (0 : Fin 2) * 10000 + (j 0).val; omega
  · show win0_2.index t (1 : Fin 2) * 64 + 1 * (j 1).val = (j 1).val; omega

end Entry

/-- An index of the result is in point `t`'s block exactly when each coordinate is in the block's range. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten blocks tile the result: row r is in the block of the point whose row block is r / 10000. -/
theorem tiled (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the result array is the whole product of the operand arrays as the region found them. -/
theorem result (V : (c : Dev nD) → (b : Ref sig .tc) → Buf (Elt Ideal) ((c : Thread nD τ).loc b)) (c : Dev nD) :
    (dat0 V c).arrAt 2 cfg0.N = whole V c :=
  (dat0 V c).arrAt_eq_of_cover 2 (whole V c) (fun t _ => written_back V c t) tiled

end Cert.KernelIdeal.Product0

end
-- ==== Proof.Product1.lean ====
/-
  The second row-tiled product, as one whole-array function.

  The kernel walks the 100000 rows of its left operand in ten blocks of 10000. At point t it loads rows
  10000·t … 10000·t + 9999 of the left operand (all 64 columns) and the whole 64 × 32 right operand, forms their product into
  a zero accumulator, and stores it whole as rows 10000·t … of the result. Changing the float format before the
  product is the identity on the extended reals, and row r of a product depends on row r of the left operand alone,
  so what point t writes back is block t of the product of the WHOLE operands. The ten blocks tile the result, hence
  after the region the result array is that product — the same sums the host's one whole product takes, entry by
  entry, with no condition on the entries.
-/
import proofs.«173399_j2817498546746_1_alg».proof.Proof.Gen.KernelIdeal.Frame
import proofs.«173399_j2817498546746_1_alg».proof.Proof.LibRowBlockDot
import Idealize.ShloMosaic.Lib.Pipeline.Value
import Idealize.ShloMosaic.Lib.ValueIdx

set_option maxRecDepth 16384

noncomputable section

namespace Cert.KernelIdeal.Product1

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)

/-- The stores and loads of the body start at the origin of their buffers. -/
theorem origin : (![0, 0] : Fin 2 → Nat) = fun _ => 0 := funext fun a => by fin_cases a <;> rfl

/-! ## One point's arithmetic -/

/-- Entry `j` of the body's stored value, computed from a block `x0` holding the rows `row a` of a matrix `X` and a
    block `x1` holding `W` entry by entry, is entry `i` of the host's product `X · W` when `i` is in row `row (j 0)`
    and the same column. -/
theorem stored_entry (X : FVec Ideal S100000x64 .f32) (W : FVec Ideal S64x32 .f32)
    (x0 : Vec Ideal S10000x64 .f32) (x1 : Vec Ideal S64x32 .f32) (row : Fin 10000 → Fin 100000)
    (h0 : ∀ a k, x0 (ix2 a k) = X (ix2 (row a) k)) (h1 : ∀ k b, x1 (ix2 k b) = W (ix2 k b))
    (j : S10000x32.Idx) (i : S100000x32.Idx) (hi0 : (i 0).val = (row (j 0)).val) (hi1 : (i 1).val = (j 1).val) :
    k1_pay1 (F := Ideal) x0 x1 j = Host.dotGeneral (DotDims.plain 100000 64 32) none X W i := by
  unfold k1_pay1
  exact Cert.LibRowBlockDot.matmul_rowBlock_apply_idx none none X W _ _ row (fun a k => by rw [shapeCast_self]; exact h0 a k) h1 j i hi0 hi1

/-! ## Where the blocks sit -/

/-- The printed index maps over the ten points: the left operand's block moves with the result's along the rows and
    stays at column block 0; the right operand's block never moves; the result's row block is one of 0 … 9. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block 0 … 9 of the result is some point's. -/
theorem index_onto : ∀ q : Fin 10, ∃ t : Fin cfg1.N, win1_2.index t = ![q.val, 0] :=
  (by decide +kernel : ∀ q : Fin 10, ∃ t : Fin grid1.N, win1_2.index t = ![q.val, 0])

/-- The row of the whole matrices that row `a` of point `t`'s blocks stands for. -/
def rowAt (t : Fin cfg1.N) (a : Fin 10000) : Fin 100000 :=
  ⟨win1_2.index t (0 : Fin 2) * 10000 + a.val, by have := (index_facts t).2.2.2.2.2; have := a.isLt; omega⟩

section Entry

variable (V : (c : Dev nD) → (b : Ref sig .tc) → Buf (Elt Ideal) ((c : Thread nD τ).loc b))

/-- The product of the two operand arrays as the region finds them, whole. -/
def whole (c : Dev nD) : FVec Ideal S100000x32 .f32 :=
  Host.dotGeneral (φ₁ := .f32) (φ₂ := .f32) (DotDims.plain 100000 64 32) none (V c main_v47) (V c main_arg4)

/-- Point `t`'s block of the left operand holds rows `rowAt t a` of the array. -/
theorem left_block (c : Dev nD) (t : Fin cfg1.N) (a : Fin 10000) (k : Fin 64) :
    iblk1 V c 0 t (ix2 a k) = (V c main_v47 : FVec Ideal S100000x64 .f32) (ix2 (rowAt t a) k) := by
  obtain ⟨e0, e1, -, -, -, -⟩ := index_facts t
  show V c main_v47 (((cfg1.win 0).blk t).view.emb (ix2 a k)) = V c main_v47 _
  refine congrArg (V c main_v47) (funext fun ax => Fin.ext ?_)
  match ax with
  | ⟨0, _⟩ => show win1_0.index t (0 : Fin 2) * 10000 + 1 * a.val = win1_2.index t (0 : Fin 2) * 10000 + a.val; omega
  | ⟨1, _⟩ => show win1_0.index t (1 : Fin 2) * 64 + 1 * k.val = k.val; omega

/-- Every point's block of the right operand is the whole array. -/
theorem right_block (c : Dev nD) (t : Fin cfg1.N) (k : Fin 64) (b : Fin 32) :
    iblk1 V c 1 t (ix2 k b) = (V c main_arg4 : FVec Ideal S64x32 .f32) (ix2 k b) := by
  obtain ⟨-, -, e2, e3, -, -⟩ := index_facts t
  show V c main_arg4 (((cfg1.win 1).blk t).view.emb (ix2 k b)) = V c main_arg4 _
  refine congrArg (V c main_arg4) (funext fun ax => Fin.ext ?_)
  match ax with
  | ⟨0, _⟩ => show win1_1.index t (0 : Fin 2) * 64 + 1 * k.val = k.val; omega
  | ⟨1, _⟩ => show win1_1.index t (1 : Fin 2) * 32 + 1 * b.val = b.val; omega

/-- What point `t` writes back is block `t` of the whole product. -/
theorem written_back (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero origin]
  simp only [View.ld_unit_zero (S := S10000x64) origin, View.ld_unit_zero (S := S64x32) origin]
  obtain ⟨-, -, -, -, e4, -⟩ := index_facts t
  funext j
  show k1_pay1 (iblk1 V c 0 t) (iblk1 V c 1 t) j = whole V c (((cfg1.win 2).blk t).view.emb j)
  unfold whole
  refine stored_entry (V c main_v47) (V c main_arg4) (iblk1 V c 0 t) (iblk1 V c 1 t) (rowAt t)
    (fun a k => left_block V c t a k) (fun k b => right_block V c t k b) j _ ?_ ?_
  · show win1_2.index t (0 : Fin 2) * 10000 + 1 * (j 0).val = win1_2.index t (0 : Fin 2) * 10000 + (j 0).val; omega
  · show win1_2.index t (1 : Fin 2) * 32 + 1 * (j 1).val = (j 1).val; omega

end Entry

/-- An index of the result is in point `t`'s block exactly when each coordinate is in the block's range. -/
theorem mem_block (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v48).slice (win1_2.rect t)).set ↔ _
  rw [View.set_slice_whole, Rect.mem_set_unit]
  exact Iff.rfl

/-- The ten blocks tile the result: row r is in the block of the point whose row block is r / 10000. -/
theorem tiled (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- After the region the result array is the whole product of the operand arrays as the region found them. -/
theorem result (V : (c : Dev nD) → (b : Ref sig .tc) → Buf (Elt Ideal) ((c : Thread nD τ).loc b)) (c : Dev nD) :
    (dat1 V c).arrAt 2 cfg1.N = whole V c :=
  (dat1 V c).arrAt_eq_of_cover 2 (whole V c) (fun t _ => written_back V c t) tiled

end Cert.KernelIdeal.Product1

end
-- ==== Proof.Fold.lean ====
/-
  What the idealized kernel's last buffer contents hold at the result, as a function of the six arguments.

  The contents at the segment boundaries are a fold through the host stretches and the two regions. Read backwards
  from the result: the last stretch is the second aggregation of whatever the second region left in its output, with
  the columns, the weights and the bias as they stood before it; the second region's output is the whole product of the
  hidden activation and W2; the hidden activation is what the two stretches between the regions computed — the first
  aggregation, then the clamp — from the first region's output, which is the whole product of x and W1; and the columns
  and the weights were computed from the edge list by the stretches before the first region and are not written
  again. No stretch and no region writes an argument. Substituting each reading into the next, the result's contents
  are the network of the launch memory's six arguments.

  The readings through the host stretches hold whatever the float values are (they only say which operation's
  result sits in which buffer), and are stated so; the extended reals enter with the two products.
-/
import proofs.«173399_j2817498546746_1_alg».proof.Proof.Gen.KernelIdeal.Frame
import proofs.«173399_j2817498546746_1_alg».proof.Proof.Gen.ReferenceIdeal
import proofs.«173399_j2817498546746_1_alg».proof.Proof.Aggregation
import proofs.«173399_j2817498546746_1_alg».proof.Proof.Product0
import proofs.«173399_j2817498546746_1_alg».proof.Proof.Product1
import Idealize.ShloMosaic.Lib.StableHlo.Run

set_option maxRecDepth 16384

noncomputable section

namespace Cert.KernelIdeal.Fold

open Cert.KernelIdeal Cert.KernelIdeal.Gen Cert.GcnLayers
open Idealize.ShloMosaic Idealize.ShloMosaic.TcCoe Idealize.SL.Sem Idealize.ShloMosaic.StableHlo

/-- Read one buffer through the stretches of host operations: each operation's own result is its function of its
    operands' contents, and any other buffer holds what it held before. -/
macro "read_fold" : tactic => `(tactic| (after_results_simp <;> rfl))

section Reads

variable {F : FTy → Type} [FloatOps F]
variable (m : (ℓ : Loc nD τ sig) → Buf (Elt F) ℓ) (ρ : Dev nD → PrngReg) (c : Dev nD)

/-! ## Before the first region: the columns, the weights, and the untouched arguments -/

theorem sources_entry : W3 m ρ c (Proc.devRef .tc main_v3) = sources (F := F) (m ((c : Thread nD τ).loc main_arg1)) := by read_fold
theorem targets_entry : W3 m ρ c (Proc.devRef .tc main_v6) = targets (F := F) (m ((c : Thread nD τ).loc main_arg1)) := by read_fold

theorem weights_entry : W3 m ρ c (Proc.devRef .tc main_v29) = weights (F := F) (sources (F := F) (m ((c : Thread nD τ).loc main_arg1))) (targets (F := F) (m ((c : Thread nD τ).loc main_arg1))) := by read_fold

theorem arg0_entry : W3 m ρ c (Proc.devRef .tc main_arg0) = (m ((c : Thread nD τ).loc main_arg0)) := by read_fold
theorem arg2_entry : W3 m ρ c (Proc.devRef .tc main_arg2) = (m ((c : Thread nD τ).loc main_arg2)) := by read_fold
theorem arg3_entry : W3 m ρ c (Proc.devRef .tc main_arg3) = (m ((c : Thread nD τ).loc main_arg3)) := by read_fold
theorem arg4_entry : W3 m ρ c (Proc.devRef .tc main_arg4) = (m ((c : Thread nD τ).loc main_arg4)) := by read_fold
theorem arg5_entry : W3 m ρ c (Proc.devRef .tc main_arg5) = (m ((c : Thread nD τ).loc main_arg5)) := by read_fold

/-! ## The first region writes its output and nothing else -/

theorem sources_mid : W4 m ρ c (Proc.devRef .tc main_v3) = sources (F := F) (m ((c : Thread nD τ).loc main_arg1)) :=
  (W4_of_ne m ρ c main_v3 (by decide)).trans (sources_entry m ρ c)
theorem targets_mid : W4 m ρ c (Proc.devRef .tc main_v6) = targets (F := F) (m ((c : Thread nD τ).loc main_arg1)) :=
  (W4_of_ne m ρ c main_v6 (by decide)).trans (targets_entry m ρ c)
theorem weights_mid : W4 m ρ c (Proc.devRef .tc main_v29) = weights (F := F) (sources (F := F) (m ((c : Thread nD τ).loc main_arg1))) (targets (F := F) (m ((c : Thread nD τ).loc main_arg1))) :=
  (W4_of_ne m ρ c main_v29 (by decide)).trans (weights_entry m ρ c)
theorem arg3_mid : W4 m ρ c (Proc.devRef .tc main_arg3) = (m ((c : Thread nD τ).loc main_arg3)) := (W4_of_ne m ρ c main_arg3 (by decide)).trans (arg3_entry m ρ c)
theorem arg4_mid : W4 m ρ c (Proc.devRef .tc main_arg4) = (m ((c : Thread nD τ).loc main_arg4)) := (W4_of_ne m ρ c main_arg4 (by decide)).trans (arg4_entry m ρ c)
theorem arg5_mid : W4 m ρ c (Proc.devRef .tc main_arg5) = (m ((c : Thread nD τ).loc main_arg5)) := (W4_of_ne m ρ c main_arg5 (by decide)).trans (arg5_entry m ρ c)

/-! ## Between the regions: the first aggregation and the clamp -/

theorem hidden_entry : W6 m ρ c (Proc.devRef .tc main_v47)
    = relu64 (F := F) (aggregate64 (F := F) (W4 m ρ c (Proc.devRef .tc main_v3)) (W4 m ρ c (Proc.devRef .tc main_v6)) (W4 m ρ c (Proc.devRef .tc main_v29))
        (W4 m ρ c (Proc.devRef .tc main_arg3)) (W4 m ρ c (Proc.devRef .tc main_v30))) := by read_fold
theorem sources_entry1 : W6 m ρ c (Proc.devRef .tc main_v3) = W4 m ρ c (Proc.devRef .tc main_v3) := by read_fold
theorem targets_entry1 : W6 m ρ c (Proc.devRef .tc main_v6) = W4 m ρ c (Proc.devRef .tc main_v6) := by read_fold
theorem weights_entry1 : W6 m ρ c (Proc.devRef .tc main_v29) = W4 m ρ c (Proc.devRef .tc main_v29) := by read_fold
theorem arg4_entry1 : W6 m ρ c (Proc.devRef .tc main_arg4) = W4 m ρ c (Proc.devRef .tc main_arg4) := by read_fold
theorem arg5_entry1 : W6 m ρ c (Proc.devRef .tc main_arg5) = W4 m ρ c (Proc.devRef .tc main_arg5) := by read_fold

/-- The hidden activation, given the first region's output `M`. -/
theorem hidden_given : W6 m ρ c (Proc.devRef .tc main_v47)
    = relu64 (F := F) (aggregate64 (F := F) (sources (F := F) (m ((c : Thread nD τ).loc main_arg1))) (targets (F := F) (m ((c : Thread nD τ).loc main_arg1))) (weights (F := F) (sources (F := F) (m ((c : Thread nD τ).loc main_arg1))) (targets (F := F) (m ((c : Thread nD τ).loc main_arg1)))) (m ((c : Thread nD τ).loc main_arg3)) (W4 m ρ c (Proc.devRef .tc main_v30))) := by
  rw [hidden_entry, sources_mid, targets_mid, weights_mid, arg3_mid]

/-! ## The second region writes its output and nothing else -/

theorem sources_exit : W7 m ρ c (Proc.devRef .tc main_v3) = sources (F := F) (m ((c : Thread nD τ).loc main_arg1)) :=
  (W7_of_ne m ρ c main_v3 (by decide)).trans ((sources_entry1 m ρ c).trans (sources_mid m ρ c))
theorem targets_exit : W7 m ρ c (Proc.devRef .tc main_v6) = targets (F := F) (m ((c : Thread nD τ).loc main_arg1)) :=
  (W7_of_ne m ρ c main_v6 (by decide)).trans ((targets_entry1 m ρ c).trans (targets_mid m ρ c))
theorem weights_exit : W7 m ρ c (Proc.devRef .tc main_v29) = weights (F := F) (sources (F := F) (m ((c : Thread nD τ).loc main_arg1))) (targets (F := F) (m ((c : Thread nD τ).loc main_arg1))) :=
  (W7_of_ne m ρ c main_v29 (by decide)).trans ((weights_entry1 m ρ c).trans (weights_mid m ρ c))
theorem arg5_exit : W7 m ρ c (Proc.devRef .tc main_arg5) = (m ((c : Thread nD τ).loc main_arg5)) :=
  (W7_of_ne m ρ c main_arg5 (by decide)).trans ((arg5_entry1 m ρ c).trans (arg5_mid m ρ c))

/-! ## The last stretch: the second aggregation -/

theorem result_exit : W8 m ρ c (Proc.devRef .tc main_v64)
    = aggregate32 (F := F) (W7 m ρ c (Proc.devRef .tc main_v3)) (W7 m ρ c (Proc.devRef .tc main_v6)) (W7 m ρ c (Proc.devRef .tc main_v29))
        (W7 m ρ c (Proc.devRef .tc main_arg5)) (W7 m ρ c (Proc.devRef .tc main_v48)) := by read_fold

/-- The result, given the second region's output. -/
theorem result_given : W8 m ρ c (Proc.devRef .tc main_v64)
    = aggregate32 (F := F) (sources (F := F) (m ((c : Thread nD τ).loc main_arg1))) (targets (F := F) (m ((c : Thread nD τ).loc main_arg1))) (weights (F := F) (sources (F := F) (m ((c : Thread nD τ).loc main_arg1))) (targets (F := F) (m ((c : Thread nD τ).loc main_arg1)))) (m ((c : Thread nD τ).loc main_arg5)) (W7 m ρ c (Proc.devRef .tc main_v48)) := by
  rw [result_exit, sources_exit, targets_exit, weights_exit, arg5_exit]

end Reads

/-! ## The two products, on the extended reals -/

/-- The host's record of the first product's axes is the plain rows-by-columns one. -/
theorem dims1 : (Cert.ReferenceIdeal.dot_S100000x128_S128x64_S100000x64_1_0_0_1_n_n
    : DotDims ⟨2, ![100000, 128]⟩ ⟨2, ![128, 64]⟩ ⟨2, ![100000, 64]⟩) = DotDims.plain 100000 128 64 := rfl
/-- So is the second's. -/
theorem dims2 : (Cert.ReferenceIdeal.dot_S100000x64_S64x32_S100000x32_1_0_0_1_n_n
    : DotDims ⟨2, ![100000, 64]⟩ ⟨2, ![64, 32]⟩ ⟨2, ![100000, 32]⟩) = DotDims.plain 100000 64 32 := rfl

section AtIdeal

variable (m : (ℓ : Loc nD τ sig) → Buf (Elt Ideal) ℓ) (ρ : Dev nD → PrngReg) (c : Dev nD)

/-- The first region leaves the host's product of `x` and `W1`. -/
theorem product0_exit : W4 m ρ c (Proc.devRef .tc main_v30)
    = Host.dotGeneral (F := Ideal) (φ₁ := .f32) (φ₂ := .f32) Cert.ReferenceIdeal.dot_S100000x128_S128x64_S100000x64_1_0_0_1_n_n none (m ((c : Thread nD τ).loc main_arg0)) (m ((c : Thread nD τ).loc main_arg2)) := by
  refine (W4_arr m ρ c 2).trans ((Product0.result (V3 m ρ) c).trans ?_)
  unfold Product0.whole
  rw [show V3 m ρ c main_arg0 = (m ((c : Thread nD τ).loc main_arg0)) from arg0_entry m ρ c, show V3 m ρ c main_arg2 = (m ((c : Thread nD τ).loc main_arg2)) from arg2_entry m ρ c, dims1]

/-- The hidden activation as the second region finds it. -/
theorem hidden_value : W6 m ρ c (Proc.devRef .tc main_v47)
    = relu64 (F := Ideal) (aggregate64 (F := Ideal) (sources (F := Ideal) (m ((c : Thread nD τ).loc main_arg1))) (targets (F := Ideal) (m ((c : Thread nD τ).loc main_arg1))) (weights (F := Ideal) (sources (F := Ideal) (m ((c : Thread nD τ).loc main_arg1))) (targets (F := Ideal) (m ((c : Thread nD τ).loc main_arg1)))) (m ((c : Thread nD τ).loc main_arg3))
        (Host.dotGeneral (F := Ideal) (φ₁ := .f32) (φ₂ := .f32) Cert.ReferenceIdeal.dot_S100000x128_S128x64_S100000x64_1_0_0_1_n_n none (m ((c : Thread nD τ).loc main_arg0)) (m ((c : Thread nD τ).loc main_arg2)))) := by
  rw [hidden_given, product0_exit]

/-- The second region leaves the host's product of the hidden activation and `W2`. -/
theorem product1_exit : W7 m ρ c (Proc.devRef .tc main_v48)
    = Host.dotGeneral (F := Ideal) (φ₁ := .f32) (φ₂ := .f32) Cert.ReferenceIdeal.dot_S100000x64_S64x32_S100000x32_1_0_0_1_n_n none
        (relu64 (F := Ideal) (aggregate64 (F := Ideal) (sources (F := Ideal) (m ((c : Thread nD τ).loc main_arg1))) (targets (F := Ideal) (m ((c : Thread nD τ).loc main_arg1))) (weights (F := Ideal) (sources (F := Ideal) (m ((c : Thread nD τ).loc main_arg1))) (targets (F := Ideal) (m ((c : Thread nD τ).loc main_arg1)))) (m ((c : Thread nD τ).loc main_arg3))
          (Host.dotGeneral (F := Ideal) (φ₁ := .f32) (φ₂ := .f32) Cert.ReferenceIdeal.dot_S100000x128_S128x64_S100000x64_1_0_0_1_n_n none (m ((c : Thread nD τ).loc main_arg0)) (m ((c : Thread nD τ).loc main_arg2)))))
        (m ((c : Thread nD τ).loc main_arg4)) := by
  refine (W7_arr m ρ c 2).trans ((Product1.result (V6 m ρ) c).trans ?_)
  unfold Product1.whole
  rw [show V6 m ρ c main_v47 = _ from hidden_value m ρ c,
    show V6 m ρ c main_arg4 = (m ((c : Thread nD τ).loc main_arg4)) from (arg4_entry1 m ρ c).trans (arg4_mid m ρ c), dims2]

/-- The result's buffer ends at the network of the six arguments as launched. -/
theorem result_value : W8 m ρ c (Proc.devRef .tc main_v64)
    = network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [result_given, product1_exit]
  rfl

end AtIdeal

end Cert.KernelIdeal.Fold

end
-- ==== Proof.ReferenceValue.lean ====
/-
  The reference's result is the network of its six arguments.

  The reference's run leaves in its result one long term: its 83 host operations composed, the edge list's columns and
  the weights written out again wherever an operation reads them. Folding that term back along the names of
  `Aggregation` — the columns, the degrees, the weights, the two aggregations, the clamp, and the host's two whole
  products where they stand — gives the network, and the folding is by definition: the two terms are the same tree of
  operations.
-/
import proofs.«173399_j2817498546746_1_alg».proof.Proof.ReferenceRun
import proofs.«173399_j2817498546746_1_alg».proof.Proof.Aggregation

set_option maxRecDepth 16384

noncomputable section

namespace Cert.ReferenceIdeal.Network

open Cert.ReferenceIdeal Cert.ReferenceIdeal.Gen Cert.GcnLayers
open Idealize.ShloMosaic Idealize.ShloMosaic.TcCoe Idealize.SL.Sem

variable {F : FTy → Type} [FloatOps F]

/-- The composed term the reference's run states for its result is the network of the launch memory's arguments. -/
theorem result_value (m : (ℓ : Loc nD τ sig) → Buf (Elt F) ℓ) (c : Dev nD) :
    Cert.ReferenceIdeal.ValueP.res_main_v64 m c
      = network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v64
  rfl

end Cert.ReferenceIdeal.Network

end
-- ==== Proof.lean ====
/-
  A two-layer graph convolution whose two dense products are row-tiled kernels, against the same network with the
  host's whole products: equal results on the extended reals.

  Both programs compute  out = agg₃₂( relu(agg₆₄(x · W1, b1)) · W2, b2 ),  where an aggregation gathers the rows of a
  dense matrix at the edges' sources, scales them by the edge weights, scatter-adds them at the targets and adds a bias
  (`Aggregation`). Their host operations are the same, one for one; they differ only in the two products. The kernel
  forms each product ten row blocks at a time, from operands whose float format it narrows first; on the extended reals
  the narrowing is the identity and a block of rows of a product is the product of that block of rows, so each region
  leaves the whole product in its output (`Product0`, `Product1`). Reading the kernel's buffers back through its host
  stretches and regions (`KernelRun`, `Fold`) and the reference's through its operations (`ReferenceRun`,
  `ReferenceValue`) gives the same function of the six arguments, the network. No law that fails at an infinite entry
  is used — the two sides are the same sums of the same products — so the precondition is never opened.

  The three frames: the two kernel programs' are their frame proofs; the reference's is its run with the result dropped.
  The idealization rewrote no operation, so there is nothing to preserve.
-/
import proofs.«173399_j2817498546746_1_alg».proof.Defs
import proofs.«173399_j2817498546746_1_alg».proof.Proof.Gen.Kernel
import proofs.«173399_j2817498546746_1_alg».proof.Proof.Gen.Kernel.Skeleton
import proofs.«173399_j2817498546746_1_alg».proof.Proof.Gen.Kernel.Launch
import proofs.«173399_j2817498546746_1_alg».proof.Proof.Gen.Kernel.Points
import proofs.«173399_j2817498546746_1_alg».proof.Proof.Gen.Kernel.Frame
import proofs.«173399_j2817498546746_1_alg».proof.Proof.Gen.KernelIdeal
import proofs.«173399_j2817498546746_1_alg».proof.Proof.Gen.KernelIdeal.Skeleton
import proofs.«173399_j2817498546746_1_alg».proof.Proof.Gen.KernelIdeal.Launch
import proofs.«173399_j2817498546746_1_alg».proof.Proof.Gen.KernelIdeal.Points
import proofs.«173399_j2817498546746_1_alg».proof.Proof.Gen.KernelIdeal.Frame
import proofs.«173399_j2817498546746_1_alg».proof.Proof.Gen.ReferenceIdeal
import proofs.«173399_j2817498546746_1_alg».proof.Proof.Gen.Pre_finite_inputs
import proofs.«173399_j2817498546746_1_alg».proof.Proof.KernelRun
import proofs.«173399_j2817498546746_1_alg».proof.Proof.Fold
import proofs.«173399_j2817498546746_1_alg».proof.Proof.ReferenceRun
import proofs.«173399_j2817498546746_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with what it says of the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with the network of those arguments in their
    result: the kernel by its fold, the reference by its composed term, the arguments' agreement carried over. -/
theorem algebraic : Cert.algebraic_KernelIdeal_ReferenceIdeal := by
  intro m ρ m' ρ' _ hagree
  refine ⟨fun c => Cert.GcnLayers.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result_value m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Network.result_value m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
